-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x768 : Shape := ⟨2, ![64, 768]⟩
abbrev S768x768 : Shape := ⟨2, ![768, 768]⟩
abbrev S1x1 : Shape := ⟨2, ![1, 1]⟩
abbrev S1x768 : Shape := ⟨2, ![1, 768]⟩
abbrev S_ : Shape := ⟨0, ![]⟩

class Facts : Prop where
  bcast_S_S64x768 : S_.BroadcastsInDim S64x768 (![] : Fin 0 → Fin S64x768.rank)
  reducesTo_S64x768_S_d0_1 : S64x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_
  bcast_S_S1x1 : S_.BroadcastsInDim S1x1 (![] : Fin 0 → Fin S1x1.rank)
  reducesTo_S1x1_S_d0_1 : S1x1.ReducesTo [0, 1] S_
  bcast_S_S1x768 : S_.BroadcastsInDim S1x768 (![] : Fin 0 → Fin S1x768.rank)
  reducesTo_S1x768_S_d0_1 : S1x768.ReducesTo [0, 1] S_

variable [Facts]

def fn_part1 {F : FTy → Type} [FloatOps F] (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  main_v18

def fn {F : FTy → Type} [FloatOps F] (main_arg0 : FVec F S64x768 .f32) (main_arg1 : FVec F S768x768 .f32) (main_arg2 : FVec F S1x1 .f32) (main_arg3 : FVec F S1x768 .f32) : IVec S_ 1 :=
  let main_v0 : FVec F S64x768 .f32 := Host.absf main_arg0
  let main_cst : FVec F S_ .f32 := constant S_ .f32 0x7F800000#32
  let main_v1 : FVec F S64x768 .f32 := broadcastInDim S64x768 ![] bcast_S_S64x768 main_cst
  let main_v2 : IVec S64x768 1 := cmpf .olt main_v0 main_v1
  let main_c : IVec S_ 1 := constantI S_ 1 1#1
  let main_v3 : IVec S_ 1 := (fun x v => Host.reduce IntOp.andi x v reducesTo_S64x768_S_d0_1 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S1x1 .f32 := Host.absf main_arg2
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  let main_v14 : FVec F S1x768 .f32 := Host.absf main_arg3
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_v13 main_v16
-- ==== Kernel.lean ====
abbrev S64x768 : Shape := ⟨2, ![64, 768]⟩
abbrev S768x768 : Shape := ⟨2, ![768, 768]⟩
abbrev S1x1 : Shape := ⟨2, ![1, 1]⟩
abbrev S1x768 : Shape := ⟨2, ![1, 768]⟩
abbrev S_ : Shape := ⟨0, ![]⟩
abbrev S64x768x768 : Shape := ⟨3, ![64, 768, 768]⟩
abbrev S8x768 : Shape := ⟨2, ![8, 768]⟩
abbrev S8x768x768 : Shape := ⟨3, ![8, 768, 768]⟩
abbrev S8x1x768 : Shape := ⟨3, ![8, 1, 768]⟩
abbrev S1x768x768 : Shape := ⟨3, ![1, 768, 768]⟩
abbrev S8x768x1 : Shape := ⟨3, ![8, 768, 1]⟩

abbrev nBuf : Space → Nat
  | .hbm => 24
  | .vmem => 7
  | .smem => 0
  | _ => 0

abbrev bufTy : (tb : Table) → Fin (tcTables nBuf tb) → BufTy
  | .hbm, ⟨0, _⟩ => ⟨S64x768, .f32⟩
  | .hbm, ⟨1, _⟩ => ⟨S768x768, .f32⟩
  | .hbm, ⟨2, _⟩ => ⟨S1x1, .f32⟩
  | .hbm, ⟨3, _⟩ => ⟨S1x768, .f32⟩
  | .hbm, ⟨4, _⟩ => ⟨S1x1, .f32⟩
  | .hbm, ⟨5, _⟩ => ⟨S768x768, .f32⟩
  | .hbm, ⟨6, _⟩ => ⟨S768x768, .f32⟩
  | .hbm, ⟨7, _⟩ => ⟨S768x768, .f32⟩
  | .hbm, ⟨8, _⟩ => ⟨S768x768, .f32⟩
  | .hbm, ⟨9, _⟩ => ⟨S64x768, .f32⟩
  | .hbm, ⟨10, _⟩ => ⟨S64x768, .f32⟩
  | .hbm, ⟨11, _⟩ => ⟨S64x768, .f32⟩
  | .hbm, ⟨12, _⟩ => ⟨S64x768, .f32⟩
  | .hbm, ⟨13, _⟩ => ⟨S64x768, .f32⟩
  | .hbm, ⟨14, _⟩ => ⟨S768x768, .f32⟩
  | .hbm, ⟨15, _⟩ => ⟨S64x768, .f32⟩
  | .hbm, ⟨16, _⟩ => ⟨S768x768, .i32⟩
  | .hbm, ⟨17, _⟩ => ⟨S768x768, .i32⟩
  | .hbm, ⟨18, _⟩ => ⟨S_, .i32⟩
  | .hbm, ⟨19, _⟩ => ⟨S768x768, .i32⟩
  | .hbm, ⟨20, _⟩ => ⟨S768x768, .i32⟩
  | .hbm, ⟨21, _⟩ => ⟨S768x768, .i1⟩
  | .hbm, ⟨22, _⟩ => ⟨S768x768, .f32⟩
  | .hbm, ⟨23, _⟩ => ⟨S64x768x768, .f32⟩
  | .local _ .vmem, ⟨0, _⟩ => ⟨S8x768, .f32⟩
  | .local _ .vmem, ⟨1, _⟩ => ⟨S8x768, .f32⟩
  | .local _ .vmem, ⟨2, _⟩ => ⟨S768x768, .f32⟩
  | .local _ .vmem, ⟨3, _⟩ => ⟨S8x768, .f32⟩
  | .local _ .vmem, ⟨4, _⟩ => ⟨S8x768, .f32⟩
  | .local _ .vmem, ⟨5, _⟩ => ⟨S768x768, .f32⟩
  | .local _ .vmem, ⟨6, _⟩ => ⟨S8x768x768, .f32⟩
  | _, _ => ⟨S64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_v0_0 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_v12 : Ref sig .tc := ⟨.hbm, 16, rfl⟩
abbrev main_call0_v13 : Ref sig .tc := ⟨.hbm, 17, rfl⟩
abbrev main_call0_c : Ref sig .tc := ⟨.hbm, 18, rfl⟩
abbrev main_call0_v14 : Ref sig .tc := ⟨.hbm, 19, rfl⟩
abbrev main_call0_v15 : Ref sig .tc := ⟨.hbm, 20, rfl⟩
abbrev main_call0_v16 : Ref sig .tc := ⟨.hbm, 21, rfl⟩
abbrev main_call0_v17 : Ref sig .tc := ⟨.hbm, 22, rfl⟩
abbrev main_v0_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x768x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

class Facts₀ : Prop where
  bcast_S1x1_S768x768_0_1 : S1x1.BroadcastsInDim S768x768 (![0, 1] : Fin 2 → Fin S768x768.rank)
  transposes_S768x768_S768x768_1_0 : S768x768.Transposes [1, 0] S768x768
  bcast_S1x768_S64x768_0_1 : S1x768.BroadcastsInDim S64x768 (![0, 1] : Fin 2 → Fin S64x768.rank)
  bcast_S_S768x768 : S_.BroadcastsInDim S768x768 (![] : Fin 0 → Fin S768x768.rank)
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S8x768_S8x768_0_0 : ∀ a, (![0, 0] : Fin 2 → Nat) a + S8x768.size a ≤ S8x768.size a
  h_S8x768 : 0 < S8x768.numel
  shapeCasts_S8x768_S8x768 : S8x768.ShapeCasts S8x768
  shapeCasts_S8x768_S8x1x768 : S8x768.ShapeCasts S8x1x768
  shapeCasts_S768x768_S1x768x768 : S768x768.ShapeCasts S1x768x768
  broadcasts_S8x1x768_S8x768x768 : S8x1x768.Broadcasts S8x768x768
  broadcasts_S1x768x768_S8x768x768 : S1x768x768.Broadcasts S8x768x768
  bitsLt_bf16_f32 : FTy.bits .bf16 < FTy.bits .f32
  shapeCasts_S8x768_S8x768x1 : S8x768.ShapeCasts S8x768x1
  broadcasts_S8x768x1_S8x768x768 : S8x768x1.Broadcasts S8x768x768
  inb_S8x768x768_S8x768x768_0_0_0 : ∀ a, (![0, 0, 0] : Fin 3 → Nat) a + S8x768x768.size a ≤ S8x768x768.size a
  h_S8x768x768 : 0 < S8x768x768.numel
  dot_S64x768_S768x768_S64x768_1_0_0_1_n_n_wf : DotDims.WF S64x768 S768x768 S64x768 [1] [0] [0] [1] [] []
  dot_S8x768x768_S8x768x768_S8x768x768_2_2_1_1_0_0_wf : DotDims.WF S8x768x768 S8x768x768 S8x768x768 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x768.size a ≤ S64x768.size a
  hwx0_0 : ∀ i : grid0.Coords, EltTy.bits .f32 = 32 ∨ (Rect.block (s := S64x768) S8x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x768.size a ≤ S64x768.size a
  hwx0_2 : ∀ i : grid0.Coords, EltTy.bits .f32 = 32 ∨ (Rect.block (s := S64x768) S8x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x768x768.size a ≤ S64x768x768.size a
  hwx0_4 : ∀ i : grid0.Coords, EltTy.bits .f32 = 32 ∨ (Rect.block (s := S64x768x768) S8x768x768.size (cc0_transform_4 i) (hinb0_4 i)).WholeWords (EltTy.packing .f32)

variable [Facts₀]

def dot_S64x768_S768x768_S64x768_1_0_0_1_n_n : DotDims S64x768 S768x768 S64x768 where
  lhsContracting := [1]
  rhsContracting := [0]
  lhsNonContracting := [0]
  rhsNonContracting := [1]
  lhsBatch := []
  rhsBatch := []
  wf := dot_S64x768_S768x768_S64x768_1_0_0_1_n_n_wf
def dot_S8x768x768_S8x768x768_S8x768x768_2_2_1_1_0_0 : DotDims S8x768x768 S8x768x768 S8x768x768 where
  lhsContracting := [2]
  rhsContracting := [2]
  lhsNonContracting := [1]
  rhsNonContracting := [1]
  lhsBatch := [0]
  rhsBatch := [0]
  wf := dot_S8x768x768_S8x768x768_S8x768x768_2_2_1_1_0_0_wf

abbrev win0_0 : Pipeline.Window sig grid0 :=
  Pipeline.Window.ofSpec (Memref.whole main_arg0) S8x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v11) S8x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x768x768.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x768 : Shape := ⟨2, ![64, 768]⟩
abbrev S768x768 : Shape := ⟨2, ![768, 768]⟩
abbrev S1x1 : Shape := ⟨2, ![1, 1]⟩
abbrev S1x768 : Shape := ⟨2, ![1, 768]⟩
abbrev S64x1x768 : Shape := ⟨3, ![64, 1, 768]⟩
abbrev S1x768x768 : Shape := ⟨3, ![1, 768, 768]⟩
abbrev S64x768x768 : Shape := ⟨3, ![64, 768, 768]⟩
abbrev S64x768x1 : Shape := ⟨3, ![64, 768, 1]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S64x768, .f32⟩
  | .hbm, ⟨1, _⟩ => ⟨S768x768, .f32⟩
  | .hbm, ⟨2, _⟩ => ⟨S1x1, .f32⟩
  | .hbm, ⟨3, _⟩ => ⟨S1x768, .f32⟩
  | .hbm, ⟨4, _⟩ => ⟨S1x1, .f32⟩
  | .hbm, ⟨5, _⟩ => ⟨S768x768, .f32⟩
  | .hbm, ⟨6, _⟩ => ⟨S768x768, .f32⟩
  | .hbm, ⟨7, _⟩ => ⟨S768x768, .f32⟩
  | .hbm, ⟨8, _⟩ => ⟨S768x768, .f32⟩
  | .hbm, ⟨9, _⟩ => ⟨S64x768, .f32⟩
  | .hbm, ⟨10, _⟩ => ⟨S64x768, .f32⟩
  | .hbm, ⟨11, _⟩ => ⟨S64x768, .f32⟩
  | .hbm, ⟨12, _⟩ => ⟨S64x768, .f32⟩
  | .hbm, ⟨13, _⟩ => ⟨S64x768, .f32⟩
  | .hbm, ⟨14, _⟩ => ⟨S768x768, .f32⟩
  | .hbm, ⟨15, _⟩ => ⟨S64x768, .f32⟩
  | .hbm, ⟨16, _⟩ => ⟨S64x1x768, .f32⟩
  | .hbm, ⟨17, _⟩ => ⟨S1x768x768, .f32⟩
  | .hbm, ⟨18, _⟩ => ⟨S64x768x768, .f32⟩
  | .hbm, ⟨19, _⟩ => ⟨S64x768x768, .f32⟩
  | .hbm, ⟨20, _⟩ => ⟨S64x768x768, .f32⟩
  | .hbm, ⟨21, _⟩ => ⟨S64x768x768, .f32⟩
  | .hbm, ⟨22, _⟩ => ⟨S64x768x1, .f32⟩
  | .hbm, ⟨23, _⟩ => ⟨S768x768, .i32⟩
  | .hbm, ⟨24, _⟩ => ⟨S768x768, .i32⟩
  | .hbm, ⟨25, _⟩ => ⟨S_, .i32⟩
  | .hbm, ⟨26, _⟩ => ⟨S768x768, .i32⟩
  | .hbm, ⟨27, _⟩ => ⟨S768x768, .i32⟩
  | .hbm, ⟨28, _⟩ => ⟨S768x768, .i1⟩
  | .hbm, ⟨29, _⟩ => ⟨S768x768, .f32⟩
  | .hbm, ⟨30, _⟩ => ⟨S1x768x768, .f32⟩
  | .hbm, ⟨31, _⟩ => ⟨S64x768x768, .f32⟩
  | .hbm, ⟨32, _⟩ => ⟨S64x768x768, .f32⟩
  | .hbm, ⟨33, _⟩ => ⟨S64x768x768, .f32⟩
  | .hbm, ⟨34, _⟩ => ⟨S64x768x768, .f32⟩
  | _, _ => ⟨S64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]

class Facts₀ : Prop where
  bcast_S1x1_S768x768_0_1 : S1x1.BroadcastsInDim S768x768 (![0, 1] : Fin 2 → Fin S768x768.rank)
  transposes_S768x768_S768x768_1_0 : S768x768.Transposes [1, 0] S768x768
  bcast_S1x768_S64x768_0_1 : S1x768.BroadcastsInDim S64x768 (![0, 1] : Fin 2 → Fin S64x768.rank)
  bcast_S64x768_S64x1x768_0_2 : S64x768.BroadcastsInDim S64x1x768 (![0, 2] : Fin 2 → Fin S64x1x768.rank)
  bcast_S768x768_S1x768x768_1_2 : S768x768.BroadcastsInDim S1x768x768 (![1, 2] : Fin 2 → Fin S1x768x768.rank)
  bcast_S64x1x768_S64x768x768_0_1_2 : S64x1x768.BroadcastsInDim S64x768x768 (![0, 1, 2] : Fin 3 → Fin S64x768x768.rank)
  bcast_S1x768x768_S64x768x768_0_1_2 : S1x768x768.BroadcastsInDim S64x768x768 (![0, 1, 2] : Fin 3 → Fin S64x768x768.rank)
  bcast_S64x768_S64x768x1_0_1 : S64x768.BroadcastsInDim S64x768x1 (![0, 1] : Fin 2 → Fin S64x768x1.rank)
  bcast_S_S768x768 : S_.BroadcastsInDim S768x768 (![] : Fin 0 → Fin S768x768.rank)
  bcast_S64x768x1_S64x768x768_0_1_2 : S64x768x1.BroadcastsInDim S64x768x768 (![0, 1, 2] : Fin 3 → Fin S64x768x768.rank)
  dot_S64x768_S768x768_S64x768_1_0_0_1_n_n_wf : DotDims.WF S64x768 S768x768 S64x768 [1] [0] [0] [1] [] []
  dot_S64x768x768_S64x768x768_S64x768x768_2_2_1_1_0_0_wf : DotDims.WF S64x768x768 S64x768x768 S64x768x768 [2] [2] [1] [1] [0] [0]

variable [Facts₀]

def dot_S64x768_S768x768_S64x768_1_0_0_1_n_n : DotDims S64x768 S768x768 S64x768 where
  lhsContracting := [1]
  rhsContracting := [0]
  lhsNonContracting := [0]
  rhsNonContracting := [1]
  lhsBatch := []
  rhsBatch := []
  wf := dot_S64x768_S768x768_S64x768_1_0_0_1_n_n_wf
def dot_S64x768x768_S64x768x768_S64x768x768_2_2_1_1_0_0 : DotDims S64x768x768 S64x768x768 S64x768x768 where
  lhsContracting := [2]
  rhsContracting := [2]
  lhsNonContracting := [1]
  rhsNonContracting := [1]
  lhsBatch := [0]
  rhsBatch := [0]
  wf := dot_S64x768x768_S64x768x768_S64x768x768_2_2_1_1_0_0_wf

class Facts : Prop extends Facts₀ where

variable [Facts]
-- ==== Proof.LibLayoutB.lean ====
/-
  More layout operations read at an index, by coordinates: the casts and broadcasts of ranks 2–4 by which a kernel body
  spreads a row over a block (an [a, b] matrix as [a, 1, b], a [c] vector as [1, 1, c], either broadcast to [a, b, c]) and
  flattens or unflattens the two leading axes of a rank-3 block ([a, b, c] as [a·b, c] and back).
-/
import Idealize.ShloMosaic.Lib.ValueIdx
import Idealize.ShloMosaic.Lib.ValueLayout
import Idealize.ShloMosaic.Lib.Pipeline.Value

namespace Cert.LibLayoutB

open Idealize.ShloMosaic Idealize.ShloMosaic.ValueIdx

variable {α : Type}

/-- An [a, b] matrix cast to [a, 1, b] reads, at (p, u, q), the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- A [c] vector cast to [1, 1, c] reads, at (u, v, r), the operand at r. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    simp only [hu, hv, Nat.zero_mul, Nat.zero_add, Nat.mul_one, Nat.add_zero])

/-- An [a, 1, c] array broadcast to [a, b, c] reads, at (p, q, r), the operand at (p, 0, r). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A [1, b, c] array broadcast to [a, b, c] reads, at (p, q, r), the operand at (0, q, r). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A [1, 1, c] array broadcast to [a, b, c] reads, at (p, q, r), the operand at (0, 0, r). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) := by
  refine broadcastTo_apply x h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, b, c] block flattened to [m, c], m = a·b, reads, at (p·b + q, r), the operand at (p, q, r). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (r : Fin c) (n : Fin m)
    (hn : n.val = p.val * b + q.val) :
    shapeCast ⟨2, ![m, c]⟩ x h (ix2 n r) = x (ix3 p q r) :=
  shapeCast_apply x h _ _ (by
    rw [Shape.rowMajor_val_three, Shape.rowMajor_val_two]
    show (p.val * b + q.val) * c + r.val = n.val * c + r.val
    rw [hn])

/-- An [m, c] matrix, m = a·b, unflattened to [a, b, c] reads, at (p, q, r), the operand at (p·b + q, r). -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (r : Fin c) (n : Fin m)
    (hn : n.val = p.val * b + q.val) :
    shapeCast ⟨3, ![a, b, c]⟩ x h (ix3 p q r) = x (ix2 n r) :=
  shapeCast_apply x h _ _ (by
    rw [Shape.rowMajor_val_three, Shape.rowMajor_val_two]
    show n.val * c + r.val = (p.val * b + q.val) * c + r.val
    rw [hn])

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- A [1, 1, c] array cast to [1, c] reads, at (u, r), the operand at (0, 0, r). -/
theorem shapeCast_11c_1c_apply {c : ℕ} (x : (⟨3, ![1, 1, c]⟩ : Shape).Idx → α)
    (h : (⟨3, ![1, 1, c]⟩ : Shape).ShapeCasts ⟨2, ![1, c]⟩) (u : Fin 1) (r : Fin c) :
    shapeCast ⟨2, ![1, c]⟩ x h (ix2 u r) = x (ix3 (0 : Fin 1) (0 : Fin 1) r) :=
  shapeCast_apply x h _ _ (by
    have hu : u.val = 0 := by omega
    rw [Shape.rowMajor_val_three, Shape.rowMajor_val_two]
    show (0 * 1 + 0) * c + r.val = u.val * c + r.val
    simp only [hu, Nat.zero_mul, Nat.zero_add, Nat.mul_one, Nat.add_zero])

end Cert.LibLayoutB
-- ==== Proof.LibLanes.lean ====
/-
  Grouped lanes. An array of shape [a, b, c] is read as a rows of b groups of c lanes each. A reduction over the
  lane axis that keeps the axis (jnp's keepdims) leaves one entry per group, carried as a column of shape [a, b, 1]
  and spread back over the c lanes of its group. This file reads those layout steps at an index given by
  coordinates, and reads a lane minimum or maximum — a kernel's vector reduction and the host's reduce alike — as
  the fold of min or max, from the value of the initial word, over the lane coordinate of one group.
-/
import Idealize.ShloMosaic.Lib.Pipeline.Value
import Idealize.ShloMosaic.Lib.ValueIdx
import Idealize.ShloMosaic.PureOps.Ideal.Laws
import Idealize.ShloMosaic.PureOps.Reduce

noncomputable section

namespace Cert.Lanes

open Idealize.ShloMosaic Idealize.ShloMosaic.ValueIdx

variable {α : Type} {a b c : Nat}

/-! ## The per-group column: [a, b] → [a, b, 1] → [a, b, c] -/

/-- A matrix of per-group values cast to a column per group, read at (p, g, 0), is the matrix at (p, g). -/
theorem shapeCast_ab_ab1_apply (x : (⟨2, ![a, b]⟩ : Shape).Idx → α)
    (h : (⟨2, ![a, b]⟩ : Shape).ShapeCasts ⟨3, ![a, b, 1]⟩) (p : Fin a) (g : Fin b) :
    shapeCast ⟨3, ![a, b, 1]⟩ x h (ix3 p g (0 : Fin 1)) = x (ix2 p g) :=
  shapeCast_apply x h (ix3 p g (0 : Fin 1)) (ix2 p g) (by
    rw [Shape.rowMajor_val_two, Shape.rowMajor_val_three]
    show p.val * b + g.val = (p.val * b + g.val) * 1 + 0
    rw [Nat.mul_one, Nat.add_zero])

/-- A column per group spread over the group's lanes, read at (p, g, l), is the column's entry at (p, g, 0):
    every lane of a group sees its group's value. -/
theorem broadcastTo_ab1_abc_apply (x : (⟨3, ![a, b, 1]⟩ : Shape).Idx → α)
    (h : (⟨3, ![a, b, 1]⟩ : Shape).Broadcasts ⟨3, ![a, b, c]⟩) (p : Fin a) (g : Fin b) (l : Fin c) :
    broadcastTo ⟨3, ![a, b, c]⟩ x h (ix3 p g l) = x (ix3 p g (0 : Fin 1)) := by
  refine broadcastTo_apply x h (ix3 p g l) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ =>
    show (0 : Nat) = if (1 : Nat) = 1 then 0 else l.val
    rw [if_pos rfl]

/-! ## A group's lanes as a fold over the lane coordinate -/

/-- The minimum of group (p, g)'s lanes, folded from the value of the word `w`. -/
def laneMin (w : BitVec 32) (z : (⟨3, ![a, b, c]⟩ : Shape).Idx → EReal) (p : Fin a) (g : Fin b) : EReal :=
  (Finset.univ : Finset (Fin c)).fold min (Ideal.ofBits .f32 w) (fun l => z (ix3 p g l))

/-- The maximum of group (p, g)'s lanes, folded from the value of the word `w`. -/
def laneMax (w : BitVec 32) (z : (⟨3, ![a, b, c]⟩ : Shape).Idx → EReal) (p : Fin a) (g : Fin b) : EReal :=
  (Finset.univ : Finset (Fin c)).fold max (Ideal.ofBits .f32 w) (fun l => z (ix3 p g l))

/-- The source index over group (p, g) with lane coordinate `k` is (p, g, k). -/
theorem lift_lane (h : (⟨3, ![a, b, c]⟩ : Shape).Reduces [2] ⟨2, ![a, b]⟩) (p : Fin a) (g : Fin b)
    (k : Fin ((⟨3, ![a, b, c]⟩ : Shape).size 2)) :
    h.lift (ix2 p g) k = ix3 p g (⟨k.val, k.isLt⟩ : Fin c) := by
  funext ax; apply Fin.ext
  match ax with
  | ⟨0, _⟩ => rfl
  | ⟨1, _⟩ => rfl
  | ⟨2, _⟩ => rfl

/-- A kernel's lane minimum (a vector reduction over the last axis), read at group (p, g) on the extended reals. -/
theorem multiReduction_minimumf_lane (src : FVec Ideal ⟨3, ![a, b, c]⟩ .f32) (w : BitVec 32)
    (h : (⟨3, ![a, b, c]⟩ : Shape).Reduces [2] ⟨2, ![a, b]⟩) (hφ : FKind.Formats .f32)
    (hacc : w = FKind.minimumf.neutral .f32 hφ) (p : Fin a) (g : Fin b) :
    multiReduction .minimumf [2] ⟨2, ![a, b]⟩ src w h hφ hacc (ix2 p g) = laneMin w src p g := by
  rw [multiReduction_minimumf_eq_fold]
  refine (h.fold_filter_drop_single _ _ src (ix2 p g)).trans ?_
  exact congrArg (fun f => Finset.fold min (Ideal.ofBits .f32 w) f (Finset.univ : Finset (Fin c)))
    (funext fun k => congrArg src (lift_lane h p g k))

/-- A kernel's lane maximum, read at group (p, g) on the extended reals. -/
theorem multiReduction_maximumf_lane (src : FVec Ideal ⟨3, ![a, b, c]⟩ .f32) (w : BitVec 32)
    (h : (⟨3, ![a, b, c]⟩ : Shape).Reduces [2] ⟨2, ![a, b]⟩) (hφ : FKind.Formats .f32)
    (hacc : w = FKind.maximumf.neutral .f32 hφ) (p : Fin a) (g : Fin b) :
    multiReduction .maximumf [2] ⟨2, ![a, b]⟩ src w h hφ hacc (ix2 p g) = laneMax w src p g := by
  rw [multiReduction_maximumf_eq_fold]
  refine (h.fold_filter_drop_single _ _ src (ix2 p g)).trans ?_
  exact congrArg (fun f => Finset.fold max (Ideal.ofBits .f32 w) f (Finset.univ : Finset (Fin c)))
    (funext fun k => congrArg src (lift_lane h p g k))

/-- The host's lane minimum (a reduce with a minimum body over the last axis, from a scalar initial value holding
    the word `w`), read at group (p, g) on the extended reals: the same fold. -/
theorem hostReduce_minimumf_lane (x : FVec Ideal ⟨3, ![a, b, c]⟩ .f32) (w : BitVec 32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (g : Fin b) :
    Host.reduce FloatOps.minimumf x (constant (F := Ideal) (⟨0, ![]⟩ : Shape) .f32 w) h' hu (ix2 p g) = laneMin w x p g := by
  rw [Host.reduce_eq_fold_single FloatOps.minimumf x _ h' h hu]
  exact congrArg (fun f => Finset.fold min (Ideal.ofBits .f32 w) f (Finset.univ : Finset (Fin c)))
    (funext fun k => congrArg x (lift_lane h p g k))

/-- The host's lane maximum, read at group (p, g) on the extended reals. -/
theorem hostReduce_maximumf_lane (x : FVec Ideal ⟨3, ![a, b, c]⟩ .f32) (w : BitVec 32)
    (h' : (⟨3, ![a, b, c]⟩ : Shape).ReducesTo [2] ⟨2, ![a, b]⟩) (h : (⟨3, ![a, b, c]⟩ : Shape).Reduces [2] ⟨2, ![a, b]⟩)
    (hu : 0 < (⟨0, ![]⟩ : Shape).numel) (p : Fin a) (g : Fin b) :
    Host.reduce FloatOps.maximumf x (constant (F := Ideal) (⟨0, ![]⟩ : Shape) .f32 w) h' hu (ix2 p g) = laneMax w x p g := by
  rw [Host.reduce_eq_fold_single FloatOps.maximumf x _ h' h hu]
  exact congrArg (fun f => Finset.fold max (Ideal.ofBits .f32 w) f (Finset.univ : Finset (Fin c)))
    (funext fun k => congrArg x (lift_lane h p g k))

end Cert.Lanes

end
-- ==== Proof.LibDot.lean ====
/-
  Contractions and layout operations read at an index, in the forms the score head and the distance head need:
  a one-axis contraction (a matrix product of either program) as a sum over `Fin K`, and row-major positions of small ranks.
-/
import Idealize.ShloMosaic.PureOps.Ideal.Laws
import Idealize.ShloMosaic.Lib.ValueIdx
import Idealize.ShloMosaic.Lib.Pipeline.Value

noncomputable section

namespace Cert.LibDot

open Idealize.ShloMosaic Idealize.ShloMosaic.ValueIdx

/-- A contraction over ONE axis of extent `K`, re-indexed by that axis's coordinate: whatever the two operand indices
    are at the contraction position whose one coordinate is `k` (`hL`, `hR`), the sum over the contraction shape is the sum
    over `Fin K` of the operands there. -/
theorem sum_contr_eq {sl sr so : Shape} (D : DotDims sl sr so) (K : ℕ) (hr : D.contr.rank = 1)
    (hs : D.contr.size ⟨0, by omega⟩ = K) (x : sl.Idx → EReal) (y : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, x (D.lhsIdx j k) * y (D.rhsIdx j k) = ∑ k : Fin K, x (L k) * y (R k) := by
  rw [← Equiv.sum_comp (contrEquiv1 D K hr hs).symm]
  exact Finset.sum_congr rfl fun k _ => by rw [hL, hR]

end Cert.LibDot

end
-- ==== Proof.Payload.lean ====
/-
  The value one grid point stores, read at an index. A point holds 8 batch rows of x (`xb`) and of the
  diagonal correction (`tb`), and all of W (`w`) and of the mask (`e`). It forms the scaled rows
  u[b, o, k] = xb[b, k] · w[o, k] (row b of x laid along every row of W), multiplies u by itself over the shared
  feature axis k — a batched matrix product into a zero accumulator, which on the extended reals is the plain sum
  ∑ₖ u[b, o, k] · u[b, p, k], the narrowing of u to a shorter float format being the identity there — and adds
  tb[b, o] · e[o, p], the correction laid along the last axis times the mask laid along the batch axis.
-/
import proofs.«169412_j44358422233577_2_alg».proof.Proof.Gen.KernelIdeal.Skeleton
import proofs.«169412_j44358422233577_2_alg».proof.Proof.LibLayoutB
import proofs.«169412_j44358422233577_2_alg».proof.Proof.LibLanes
import proofs.«169412_j44358422233577_2_alg».proof.Proof.LibDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The scaled rows: row b of the x block laid along the rows of W and multiplied entrywise, then narrowed
    (the identity on the extended reals), reads x[b, k] · W[o, k] at (b, o, k). -/
theorem scaled_apply (w : Vec Ideal S768x768 .f32) (xb : Vec Ideal S8x768 .f32)
    (h1 : S8x768.ShapeCasts S8x1x768) (h2 : S768x768.ShapeCasts S1x768x768)
    (h3 : S8x1x768.Broadcasts S8x768x768) (h4 : S1x768x768.Broadcasts S8x768x768) (h5 : FTy.bits .bf16 < FTy.bits .f32)
    (b : Fin 8) (o k : Fin 768) :
    (truncf .bf16 (mulf (broadcastTo S8x768x768 (shapeCast S8x1x768 xb h1) h3 : FVec Ideal S8x768x768 .f32)
        (broadcastTo S8x768x768 (shapeCast S1x768x768 w h2) h4)) h5 : FVec Ideal S8x768x768 .bf16) (ix3 b o k)
      = (xb (ix2 b k) * w (ix2 o k) : EReal) := by
  show (broadcastTo S8x768x768 (shapeCast S8x1x768 xb h1) h3 (ix3 b o k) : EReal)
      * broadcastTo S8x768x768 (shapeCast S1x768x768 w h2) h4 (ix3 b o k) = _
  rw [LibLayoutB.broadcastTo_a1c_abc_apply, LibLayoutB.shapeCast_ab_a1b_apply, LibLayoutB.broadcastTo_1bc_abc_apply,
    shapeCast_ab_1ab_apply]

/-! The two operand indices of the batched product at an output index and a contraction index, axis by axis:
    the batch axis and the row axis come from the output index (the left factor's row from its middle coordinate,
    the right factor's from its last), the feature axis from the contraction index. -/

theorem lhs_axis0 (i : S8x768x768.Idx) (q : dot_S8x768x768_S8x768x768_S8x768x768_2_2_1_1_0_0.contr.Idx) :
    (dot_S8x768x768_S8x768x768_S8x768x768_2_2_1_1_0_0.lhsIdx i q 0).val = (i 0).val := by
  unfold DotDims.lhsIdx
  rw [dif_pos (show (0 : Fin S8x768x768.rank) ∈ dot_S8x768x768_S8x768x768_S8x768x768_2_2_1_1_0_0.lhsBatch by decide)]
  rfl
theorem lhs_axis1 (i : S8x768x768.Idx) (q : dot_S8x768x768_S8x768x768_S8x768x768_2_2_1_1_0_0.contr.Idx) :
    (dot_S8x768x768_S8x768x768_S8x768x768_2_2_1_1_0_0.lhsIdx i q 1).val = (i 1).val := by
  unfold DotDims.lhsIdx
  rw [dif_neg (show ¬(1 : Fin S8x768x768.rank) ∈ dot_S8x768x768_S8x768x768_S8x768x768_2_2_1_1_0_0.lhsBatch by decide),
    dif_pos (show (1 : Fin S8x768x768.rank) ∈ dot_S8x768x768_S8x768x768_S8x768x768_2_2_1_1_0_0.lhsNonContracting by decide)]
  rfl
theorem lhs_axis2 (i : S8x768x768.Idx) (q : dot_S8x768x768_S8x768x768_S8x768x768_2_2_1_1_0_0.contr.Idx) :
    (dot_S8x768x768_S8x768x768_S8x768x768_2_2_1_1_0_0.lhsIdx i q 2).val = (q ⟨0, by decide⟩).val :=
  dot_S8x768x768_S8x768x768_S8x768x768_2_2_1_1_0_0.lhsIdx_val_of_single rfl i q
theorem rhs_axis0 (i : S8x768x768.Idx) (q : dot_S8x768x768_S8x768x768_S8x768x768_2_2_1_1_0_0.contr.Idx) :
    (dot_S8x768x768_S8x768x768_S8x768x768_2_2_1_1_0_0.rhsIdx i q 0).val = (i 0).val := by
  unfold DotDims.rhsIdx
  rw [dif_pos (show (0 : Fin S8x768x768.rank) ∈ dot_S8x768x768_S8x768x768_S8x768x768_2_2_1_1_0_0.rhsBatch by decide)]
  rfl
theorem rhs_axis1 (i : S8x768x768.Idx) (q : dot_S8x768x768_S8x768x768_S8x768x768_2_2_1_1_0_0.contr.Idx) :
    (dot_S8x768x768_S8x768x768_S8x768x768_2_2_1_1_0_0.rhsIdx i q 1).val = (i 2).val := by
  unfold DotDims.rhsIdx
  rw [dif_neg (show ¬(1 : Fin S8x768x768.rank) ∈ dot_S8x768x768_S8x768x768_S8x768x768_2_2_1_1_0_0.rhsBatch by decide),
    dif_pos (show (1 : Fin S8x768x768.rank) ∈ dot_S8x768x768_S8x768x768_S8x768x768_2_2_1_1_0_0.rhsNonContracting by decide)]
  rfl
theorem rhs_axis2 (i : S8x768x768.Idx) (q : dot_S8x768x768_S8x768x768_S8x768x768_2_2_1_1_0_0.contr.Idx) :
    (dot_S8x768x768_S8x768x768_S8x768x768_2_2_1_1_0_0.rhsIdx i q 2).val = (q ⟨0, by decide⟩).val :=
  dot_S8x768x768_S8x768x768_S8x768x768_2_2_1_1_0_0.rhsIdx_val_of_single rfl i q

/-- The left factor's index at output (b, o, p) and feature k is (b, o, k). -/
theorem lhs_at (b : Fin 8) (o p k : Fin 768) :
    dot_S8x768x768_S8x768x768_S8x768x768_2_2_1_1_0_0.lhsIdx (ix3 b o p)
      ((contrEquiv1 dot_S8x768x768_S8x768x768_S8x768x768_2_2_1_1_0_0 768 rfl rfl).symm k) = ix3 b o k := by
  have hk := contrEquiv1_symm_val dot_S8x768x768_S8x768x768_S8x768x768_2_2_1_1_0_0 768 rfl rfl k
  funext a; apply Fin.ext
  match a with
  | ⟨0, _⟩ => exact lhs_axis0 _ _
  | ⟨1, _⟩ => exact lhs_axis1 _ _
  | ⟨2, _⟩ => exact (lhs_axis2 _ _).trans hk

/-- The right factor's index at output (b, o, p) and feature k is (b, p, k). -/
theorem rhs_at (b : Fin 8) (o p k : Fin 768) :
    dot_S8x768x768_S8x768x768_S8x768x768_2_2_1_1_0_0.rhsIdx (ix3 b o p)
      ((contrEquiv1 dot_S8x768x768_S8x768x768_S8x768x768_2_2_1_1_0_0 768 rfl rfl).symm k) = ix3 b p k := by
  have hk := contrEquiv1_symm_val dot_S8x768x768_S8x768x768_S8x768x768_2_2_1_1_0_0 768 rfl rfl k
  funext a; apply Fin.ext
  match a with
  | ⟨0, _⟩ => exact rhs_axis0 _ _
  | ⟨1, _⟩ => exact rhs_axis1 _ _
  | ⟨2, _⟩ => exact (rhs_axis2 _ _).trans hk

/-- The batched product of an array with itself over its last axis, into a zero accumulator, reads at (b, o, p)
    the sum over k of the entries at (b, o, k) and (b, p, k). -/
theorem gram_apply (u : FVec Ideal S8x768x768 .bf16) (b : Fin 8) (o p : Fin 768) :
    matmul dot_S8x768x768_S8x768x768_S8x768x768_2_2_1_1_0_0 none u u (constant (F := Ideal) S8x768x768 .f32 0x00000000#32) (ix3 b o p)
      = ∑ k : Fin 768, (u (ix3 b o k) * u (ix3 b p k) : EReal) := by
  simp only [matmul]
  refine (Ideal.matmul_constant_zero_apply dot_S8x768x768_S8x768x768_S8x768x768_2_2_1_1_0_0 none u u (ix3 b o p)).trans ?_
  exact LibDot.sum_contr_eq dot_S8x768x768_S8x768x768_S8x768x768_2_2_1_1_0_0 768 rfl rfl u u (ix3 b o p)
    (fun k => ix3 b o k) (fun k => ix3 b p k) (fun k => lhs_at b o p k) (fun k => rhs_at b o p k)

/-- The diagonal term: the correction block laid along the last axis times the mask laid along the batch axis
    reads T[b, o] · E[o, p] at (b, o, p). -/
theorem diag_apply (e : Vec Ideal S768x768 .f32) (tb : Vec Ideal S8x768 .f32)
    (g1 : S768x768.ShapeCasts S768x768) (g2 : S8x768.ShapeCasts S8x768) (g3 : S8x768.ShapeCasts S8x768x1)
    (g4 : S768x768.ShapeCasts S1x768x768) (g5 : S8x768x1.Broadcasts S8x768x768) (g6 : S1x768x768.Broadcasts S8x768x768)
    (b : Fin 8) (o p : Fin 768) :
    (mulf (broadcastTo S8x768x768 (shapeCast S8x768x1 (shapeCast S8x768 tb g2) g3) g5 : FVec Ideal S8x768x768 .f32)
        (broadcastTo S8x768x768 (shapeCast S1x768x768 (shapeCast S768x768 e g1) g4) g6)) (ix3 b o p)
      = (tb (ix2 b o) * e (ix2 o p) : EReal) := by
  show (broadcastTo S8x768x768 (shapeCast S8x768x1 (shapeCast S8x768 tb g2) g3) g5 (ix3 b o p) : EReal)
      * broadcastTo S8x768x768 (shapeCast S1x768x768 (shapeCast S768x768 e g1) g4) g6 (ix3 b o p) = _
  rw [shapeCast_self, shapeCast_self, Lanes.broadcastTo_ab1_abc_apply, Lanes.shapeCast_ab_ab1_apply,
    LibLayoutB.broadcastTo_1bc_abc_apply, shapeCast_ab_1ab_apply]

/-- The stored value at (b, o, p): the Gram sum of the scaled rows plus the diagonal term. -/
theorem pay_apply (w e : Vec Ideal S768x768 .f32) (xb tb : Vec Ideal S8x768 .f32) (b : Fin 8) (o p : Fin 768) :
    k0_pay1 w e xb tb (ix3 b o p)
      = ((∑ k : Fin 768, (xb (ix2 b k) * w (ix2 o k)) * (xb (ix2 b k) * w (ix2 p k))) + tb (ix2 b o) * e (ix2 o p) : EReal) := by
  unfold k0_pay1
  refine (addf_apply _ _ _).trans ?_
  refine congrArg₂ (fun s d : EReal => s + d) ?_ ?_
  · refine (gram_apply _ b o p).trans ?_
    refine Finset.sum_congr rfl fun k _ => ?_
    rw [scaled_apply, scaled_apply]
  · exact diag_apply e tb _ _ _ _ _ _ b o p

end Cert.KernelIdeal.Body

end
-- ==== Proof.Spec.lean ====
/-
  The propagated covariance of a linear layer with a diagonal input covariance, as ONE function of four arrays.
  For a batch row b and output units o, p the entry is

      C[b, o, p] = ∑ₖ (x[b, k] · W[o, k]) · (x[b, k] · W[p, k])  +  T[b, o] · E[o, p]

  — the Gram matrix of the rows of W scaled by row b of x, plus a diagonal correction T spread by the mask E
  (the identity matrix in both programs; nothing here needs to know that). The sum runs over the 768 input
  features. Nothing is assumed finite: both programs form exactly these products and this sum, so no algebraic
  law of the extended reals is used beyond reading each side at an index.
-/
import Idealize.ShloMosaic.PureOps.Ideal
import Idealize.ShloMosaic.Lib.ValueIdx

noncomputable section

namespace Cert.Covariance

open Idealize.ShloMosaic Idealize.ShloMosaic.ValueIdx

/-- The entry at batch row `b` and output units `o`, `p`, for a batch of any number `B` of rows. -/
def entry {B : ℕ} (x : (⟨2, ![B, 768]⟩ : Shape).Idx → EReal) (W : (⟨2, ![768, 768]⟩ : Shape).Idx → EReal)
    (T : (⟨2, ![B, 768]⟩ : Shape).Idx → EReal) (E : (⟨2, ![768, 768]⟩ : Shape).Idx → EReal)
    (b : Fin B) (o p : Fin 768) : EReal :=
  (∑ k : Fin 768, (x (ix2 b k) * W (ix2 o k)) * (x (ix2 b k) * W (ix2 p k))) + T (ix2 b o) * E (ix2 o p)

/-- The whole [64, 768, 768] array. -/
def cov (x : (⟨2, ![64, 768]⟩ : Shape).Idx → EReal) (W : (⟨2, ![768, 768]⟩ : Shape).Idx → EReal)
    (T : (⟨2, ![64, 768]⟩ : Shape).Idx → EReal) (E : (⟨2, ![768, 768]⟩ : Shape).Idx → EReal) :
    (⟨3, ![64, 768, 768]⟩ : Shape).Idx → EReal :=
  fun i => entry x W T E (i 0) (i 1) (i 2)

theorem cov_ix3 (x : (⟨2, ![64, 768]⟩ : Shape).Idx → EReal) (W : (⟨2, ![768, 768]⟩ : Shape).Idx → EReal)
    (T : (⟨2, ![64, 768]⟩ : Shape).Idx → EReal) (E : (⟨2, ![768, 768]⟩ : Shape).Idx → EReal)
    (b : Fin 64) (o p : Fin 768) : cov x W T E (ix3 b o p) = entry x W T E b o p := rfl

end Cert.Covariance

end
-- ==== Proof.KernelValue.lean ====
/-
  The kernel's two results as whole arrays. The second result is written eight batch rows at a time: grid point t
  holds rows 8t … 8t + 7 of x and of the diagonal correction, all of W and all of the mask, and writes back rows
  8t … 8t + 7 of the [64, 768, 768] result. What it writes is the specification restricted to those rows, because
  the specification's entry at batch row r reads only row r of x and of the correction; the eight blocks tile the
  array (row r lies in block r / 8), so the array ends holding the specification everywhere. The correction, the
  mask and the first result are computed by the host operations before the launch; the launch leaves them alone.
-/
import proofs.«169412_j44358422233577_2_alg».proof.Proof.Gen.KernelIdeal.Value
import proofs.«169412_j44358422233577_2_alg».proof.Proof.Payload
import proofs.«169412_j44358422233577_2_alg».proof.Proof.Spec
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The host operations before the launch, as functions of the arguments -/

/-- The first result: x · Wᵀ plus the bias row laid along the batch. -/
def mean (x : FVec Ideal S64x768 .f32) (W : FVec Ideal S768x768 .f32) (bias : FVec Ideal S1x768 .f32) : FVec Ideal S64x768 .f32 :=
  addf (Host.dotGeneral dot_S64x768_S768x768_S64x768_1_0_0_1_n_n none x (transpose S768x768 [1, 0] W Facts₀.transposes_S768x768_S768x768_1_0))
    (broadcastInDim S64x768 ![0, 1] Facts₀.bcast_S1x768_S64x768_0_1 bias)

/-- The diagonal correction: (x² + x²) · (exp α · W · W)ᵀ. -/
def corr (x : FVec Ideal S64x768 .f32) (W : FVec Ideal S768x768 .f32) (α : FVec Ideal S1x1 .f32) : FVec Ideal S64x768 .f32 :=
  Host.dotGeneral dot_S64x768_S768x768_S64x768_1_0_0_1_n_n none (addf (mulf x x) (mulf x x))
    (transpose S768x768 [1, 0] (mulf (mulf (broadcastInDim S768x768 ![0, 1] Facts₀.bcast_S1x1_S768x768_0_1 (Host.exp α)) W) W)
      Facts₀.transposes_S768x768_S768x768_1_0)

/-- The mask: 1 where the row and column coordinates agree. -/
def mask : FVec Ideal S768x768 .f32 :=
  uitofp .f32 (cmpi .eq (addi (iotaInDim S768x768 32 0) (broadcastInDim S768x768 ![] Facts₀.bcast_S_S768x768 (constantI S_ 32 0#32)))
    (iotaInDim S768x768 32 1))

/-- The first result's buffer when the launch begins. -/
theorem V_mean (c : Dev nD) : (V m c main_v0_0 : S64x768.Idx → EReal)
    = mean (m ((c : Thread nD τ).loc main_arg0)) (m ((c : Thread nD τ).loc main_arg1)) (m ((c : Thread nD τ).loc main_arg3)) := by
  dsimp only [V, hostOps0]
  after_results
  rfl

/-- The correction's buffer when the launch begins. -/
theorem V_corr (c : Dev nD) : (V m c main_call0_v11 : S64x768.Idx → EReal)
    = corr (m ((c : Thread nD τ).loc main_arg0)) (m ((c : Thread nD τ).loc main_arg1)) (m ((c : Thread nD τ).loc main_arg2)) := by
  dsimp only [V, hostOps0]
  after_results
  rfl

/-- The mask's buffer when the launch begins. -/
theorem V_mask (c : Dev nD) : (V m c main_call0_v17 : S768x768.Idx → EReal) = mask := by
  dsimp only [V, hostOps0]
  after_results
  rfl

/-! ## The blocks -/

/-- The printed index maps over the eight grid points: the x, correction and result windows move down the batch
    axis with the point; the W and mask windows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Row b of point t's x block is row 8t + b of x. -/
theorem xblk_apply (c : Dev nD) (t : Fin cfg0.N) (b : Fin 8) (k : Fin 768) (r : Fin 64) (hr : r.val = t.val * 8 + b.val) :
    (iblk m c 0 t : Vec Ideal S8x768 .f32) (ix2 b k) = (V m c main_arg0 : S64x768.Idx → EReal) (ix2 r k) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 8 + 1 * b.val = r.val; omega
  | ⟨1, _⟩ => show win0_0.index t (1 : Fin 2) * 768 + 1 * k.val = k.val; omega

/-- Point t's W block is all of W. -/
theorem wblk_apply (c : Dev nD) (t : Fin cfg0.N) (o k : Fin 768) :
    (iblk m c 1 t : Vec Ideal S768x768 .f32) (ix2 o k) = (V m c main_arg1 : S768x768.Idx → EReal) (ix2 o k) := by
  obtain ⟨-, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 768 + 1 * o.val = o.val; omega
  | ⟨1, _⟩ => show win0_1.index t (1 : Fin 2) * 768 + 1 * k.val = k.val; omega

/-- Row b of point t's correction block is row 8t + b of the correction. -/
theorem tblk_apply (c : Dev nD) (t : Fin cfg0.N) (b : Fin 8) (o : Fin 768) (r : Fin 64) (hr : r.val = t.val * 8 + b.val) :
    (iblk m c 2 t : Vec Ideal S8x768 .f32) (ix2 b o) = (V m c main_call0_v11 : S64x768.Idx → EReal) (ix2 r o) := by
  obtain ⟨-, -, -, -, e0, e1, -⟩ := idx_facts t
  unfold iblk
  rw [View.read_apply]
  show V m c main_call0_v11 _ = V m c main_call0_v11 _
  refine congrArg (V m c main_call0_v11) (funext fun a => Fin.ext ?_)
  match a with
  | ⟨0, _⟩ => show win0_2.index t (0 : Fin 2) * 8 + 1 * b.val = r.val; omega
  | ⟨1, _⟩ => show win0_2.index t (1 : Fin 2) * 768 + 1 * o.val = o.val; omega

/-- Point t's mask block is all of the mask. -/
theorem eblk_apply (c : Dev nD) (t : Fin cfg0.N) (o p : Fin 768) :
    (iblk m c 3 t : Vec Ideal S768x768 .f32) (ix2 o p) = (V m c main_call0_v17 : S768x768.Idx → EReal) (ix2 o p) := by
  obtain ⟨-, -, -, -, -, -, e0, e1, -⟩ := idx_facts t
  unfold iblk
  rw [View.read_apply]
  show V m c main_call0_v17 _ = V m c main_call0_v17 _
  refine congrArg (V m c main_call0_v17) (funext fun a => Fin.ext ?_)
  match a with
  | ⟨0, _⟩ => show win0_3.index t (0 : Fin 2) * 768 + 1 * o.val = o.val; omega
  | ⟨1, _⟩ => show win0_3.index t (1 : Fin 2) * 768 + 1 * p.val = p.val; omega

/-- The specification over the arrays as the launch finds them. -/
abbrev spec (c : Dev nD) : S64x768x768.Idx → EReal :=
  Cert.Covariance.cov (V m c main_arg0) (V m c main_arg1) (V m c main_call0_v11) (V m c main_call0_v17)

/-- What point t writes back is rows 8t … 8t + 7 of the specification. -/
theorem flushed_eq (c : Dev nD) (t : Fin cfg0.N) :
    (dats m 0 c).flushed 4 t = ((cfg0.win 4).blk t).view.read (Elt Ideal) (spec m c) := by
  have hN : cfg0.N = 8 := N_0
  have ht : t.val < 8 := hN ▸ t.isLt
  obtain ⟨-, -, -, -, -, -, -, -, e0, e1, e2⟩ := idx_facts t
  rw [flushed4]
  unfold out0_4
  rw [View.canon_unit_zero hz3]
  simp only [View.ld_unit_zero (S := S768x768) hz2, View.ld_unit_zero (S := S8x768) hz2]
  funext j
  obtain ⟨b, o, p, rfl⟩ : ∃ (b : Fin 8) (o p : Fin 768), j = ix3 b o p := ⟨j 0, j 1, j 2, eq_ix3 j⟩
  show k0_pay1 (iblk m c 1 t) (iblk m c 3 t) (iblk m c 0 t) (iblk m c 2 t) (ix3 b o p)
    = spec m c (((cfg0.win 4).blk t).view.emb (ix3 b o p))
  have hemb : ((cfg0.win 4).blk t).view.emb (ix3 b o p) = ix3 (⟨t.val * 8 + b.val, by omega⟩ : Fin 64) o p := by
    funext a; apply Fin.ext
    match a with
    | ⟨0, _⟩ => show win0_4.index t (0 : Fin 3) * 8 + 1 * b.val = t.val * 8 + b.val; omega
    | ⟨1, _⟩ => show win0_4.index t (1 : Fin 3) * 768 + 1 * o.val = o.val; omega
    | ⟨2, _⟩ => show win0_4.index t (2 : Fin 3) * 768 + 1 * p.val = p.val; omega
  rw [hemb]
  refine (Body.pay_apply (iblk m c 1 t) (iblk m c 3 t) (iblk m c 0 t) (iblk m c 2 t) b o p).trans ?_
  show _ = Cert.Covariance.entry (V m c main_arg0) (V m c main_arg1) (V m c main_call0_v11) (V m c main_call0_v17)
    (⟨t.val * 8 + b.val, by omega⟩ : Fin 64) o p
  unfold Cert.Covariance.entry
  rw [tblk_apply m c t b o ⟨t.val * 8 + b.val, by omega⟩ rfl, eblk_apply m c t o p]
  refine congrArg₂ (fun s d : EReal => s + d) (Finset.sum_congr rfl fun k _ => ?_) rfl
  rw [xblk_apply m c t b k ⟨t.val * 8 + b.val, by omega⟩ rfl, wblk_apply m c t o k, wblk_apply m c t p k]

/-- An index of the result is in point t's block iff each coordinate is in the block's range on its axis. -/
theorem mem_blk (t : Fin cfg0.N) (i : S64x768x768.Idx) :
    i ∈ ((cfg0.win 4).blk t).view.set ↔ ∀ a : Fin 3, win0_4.index t a * S8x768x768.size a ≤ (i a).val
      ∧ (i a).val < win0_4.index t a * S8x768x768.size a + S8x768x768.size a := by
  show i ∈ ((View.whole main_v0_1).slice (win0_4.rect t)).set ↔ _
  rw [View.set_slice_whole, Rect.mem_set_unit]
  exact Iff.rfl

/-- The eight blocks tile the result: batch row r lies in the block of point r / 8. -/
theorem cover (i : S64x768x768.Idx) :
    ∃ t : Fin cfg0.N, (cfg0.win 4).flush t = true ∧ i ∈ ((cfg0.win 4).blk t).view.set := by
  have hN : cfg0.N = 8 := N_0
  have h0 : (i 0).val < 64 := (i 0).isLt
  have h1 : (i 1).val < 768 := (i 1).isLt
  have h2 : (i 2).val < 768 := (i 2).isLt
  have hq : (i 0).val / 8 < cfg0.N := by rw [hN]; omega
  obtain ⟨-, -, -, -, -, -, -, -, e0, e1, e2⟩ := idx_facts ⟨(i 0).val / 8, hq⟩
  refine ⟨⟨(i 0).val / 8, hq⟩, flush0_4 _, ?_⟩
  rw [mem_blk]
  intro a
  match a with
  | ⟨0, _⟩ =>
    show win0_4.index ⟨(i 0).val / 8, hq⟩ (0 : Fin 3) * 8 ≤ (i 0).val
      ∧ (i 0).val < win0_4.index ⟨(i 0).val / 8, hq⟩ (0 : Fin 3) * 8 + 8
    rw [e0]; show (i 0).val / 8 * 8 ≤ (i 0).val ∧ (i 0).val < (i 0).val / 8 * 8 + 8; omega
  | ⟨1, _⟩ =>
    show win0_4.index ⟨(i 0).val / 8, hq⟩ (1 : Fin 3) * 768 ≤ (i 1).val
      ∧ (i 1).val < win0_4.index ⟨(i 0).val / 8, hq⟩ (1 : Fin 3) * 768 + 768
    rw [e1]; omega
  | ⟨2, _⟩ =>
    show win0_4.index ⟨(i 0).val / 8, hq⟩ (2 : Fin 3) * 768 ≤ (i 2).val
      ∧ (i 2).val < win0_4.index ⟨(i 0).val / 8, hq⟩ (2 : Fin 3) * 768 + 768
    rw [e2]; omega

/-- So the second result ends holding the specification. -/
theorem final (c : Dev nD) : (dats m 0 c).arrAt 4 cfg0.N = spec m c :=
  (dats m 0 c).arrAt_eq_of_cover 4 (spec m c) (fun t _ => flushed_eq m c t) cover

/-- The specification over the arrays as the launch finds them is the specification of the arguments. -/
theorem spec_eq (c : Dev nD) : spec m c
    = Cert.Covariance.cov (m ((c : Thread nD τ).loc main_arg0)) (m ((c : Thread nD τ).loc main_arg1))
        (corr (m ((c : Thread nD τ).loc main_arg0)) (m ((c : Thread nD τ).loc main_arg1)) (m ((c : Thread nD τ).loc main_arg2))) mask := by
  unfold spec
  rw [V_main_arg0, V_main_arg1, V_corr, V_mask]

/-! ## The run, read -/

/-- Every weakly fair execution terminates with the first result at x · Wᵀ + bias, the second at the specification,
    and the arguments unchanged. -/
theorem run : θ_run defs (onTc (τ := τ) (main (F := Ideal))) ⟨m, fun _ => 0, ρ⟩ fun r => ∀ c : Dev nD,
      r.2.mem ((c : Thread nD τ).loc main_v0_0)
        = mean (m ((c : Thread nD τ).loc main_arg0)) (m ((c : Thread nD τ).loc main_arg1)) (m ((c : Thread nD τ).loc main_arg3))
      ∧ r.2.mem ((c : Thread nD τ).loc main_v0_1)
        = Cert.Covariance.cov (m ((c : Thread nD τ).loc main_arg0)) (m ((c : Thread nD τ).loc main_arg1))
            (corr (m ((c : Thread nD τ).loc main_arg0)) (m ((c : Thread nD τ).loc main_arg1)) (m ((c : Thread nD τ).loc main_arg2))) mask
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h c).2 main_v0_0 (Pipeline.mem_restRefs_of main_v0_0 (by decide) (by decide))).trans (V_mean m c),
      (post4 m r h c).trans ((final m c).trans (spec_eq m c)),
      kept_main_arg0 m r h c,
      kept_main_arg1 m r h c,
      kept_main_arg2 m r h c,
      kept_main_arg3 m r h c⟩)
    (run_main m ρ)

end Cert.KernelIdeal.Whole

end
-- ==== Proof.RefSpec.lean ====
/-
  The reference's second result is the specification. Read one operation at a time, its entry at (b, o, p) is
  the batched product of the scaled array U[b, o, k] = x[b, k] · W[o, k] with itself over k — x laid along a new
  middle axis, W along a new leading axis, so U at (b, o, k) reads x at (b, k) and W at (o, k) — plus the
  correction T at (b, o), laid along the last axis, times the mask E at (o, p), laid along the batch axis.
  T and E are kept as the reference's own stages: what they hold plays no part here.
-/
import proofs.«169412_j44358422233577_2_alg».proof.Proof.Gen.ReferenceIdeal.Read
import proofs.«169412_j44358422233577_2_alg».proof.Proof.Spec

noncomputable section

namespace Cert.ReferenceIdeal.RefValue

open Cert.ReferenceIdeal Cert.ReferenceIdeal.Read Idealize.ShloMosaic Idealize.ShloMosaic.ValueIdx

/-! Where each factor is read: the composed index maps of the layout operations, by coordinates. -/

theorem x_left (b : Fin 64) (o p k : Fin 768) :
    idx_main_v12 (idx_main_v14 (lidx_main_v17 (ix3 b o p) k)) = ix2 b k :=
  funext fun a => Fin.ext (by match a with | ⟨0, _⟩ => rfl | ⟨1, _⟩ => rfl)
theorem w_left (b : Fin 64) (o p k : Fin 768) :
    idx_main_v13 (idx_main_v15 (lidx_main_v17 (ix3 b o p) k)) = ix2 o k :=
  funext fun a => Fin.ext (by match a with | ⟨0, _⟩ => rfl | ⟨1, _⟩ => rfl)
theorem x_right (b : Fin 64) (o p k : Fin 768) :
    idx_main_v12 (idx_main_v14 (ridx_main_v17 (ix3 b o p) k)) = ix2 b k :=
  funext fun a => Fin.ext (by match a with | ⟨0, _⟩ => rfl | ⟨1, _⟩ => rfl)
theorem w_right (b : Fin 64) (o p k : Fin 768) :
    idx_main_v13 (idx_main_v15 (ridx_main_v17 (ix3 b o p) k)) = ix2 p k :=
  funext fun a => Fin.ext (by match a with | ⟨0, _⟩ => rfl | ⟨1, _⟩ => rfl)
theorem corr_at (b : Fin 64) (o p : Fin 768) : idx_main_v18 (idx_main_v26 (ix3 b o p)) = ix2 b o :=
  funext fun a => Fin.ext (by match a with | ⟨0, _⟩ => rfl | ⟨1, _⟩ => rfl)
theorem mask_at (b : Fin 64) (o p : Fin 768) : idx_main_v25 (idx_main_v27 (ix3 b o p)) = ix2 o p :=
  funext fun a => Fin.ext (by match a with | ⟨0, _⟩ => rfl | ⟨1, _⟩ => rfl)

/-- The scaled array at (b, o, k), through either operand index of the batched product. -/
theorem scaled_left (x0 : (⟨S64x768, .f32⟩ : BufTy).Contents (Elt Ideal)) (x1 : (⟨S768x768, .f32⟩ : BufTy).Contents (Elt Ideal))
    (b : Fin 64) (o p k : Fin 768) :
    val_main_v16 (F := Ideal) x0 x1 (lidx_main_v17 (ix3 b o p) k) = (x0 (ix2 b k) * x1 (ix2 o k) : EReal) := by
  rw [val_main_v16_apply, val_main_v14_apply, val_main_v12_apply, val_main_v15_apply, val_main_v13_apply, x_left, w_left]
  rfl
theorem scaled_right (x0 : (⟨S64x768, .f32⟩ : BufTy).Contents (Elt Ideal)) (x1 : (⟨S768x768, .f32⟩ : BufTy).Contents (Elt Ideal))
    (b : Fin 64) (o p k : Fin 768) :
    val_main_v16 (F := Ideal) x0 x1 (ridx_main_v17 (ix3 b o p) k) = (x0 (ix2 b k) * x1 (ix2 p k) : EReal) := by
  rw [val_main_v16_apply, val_main_v14_apply, val_main_v12_apply, val_main_v15_apply, val_main_v13_apply, x_right, w_right]
  rfl

/-- The reference's second result, as a function of its arguments, is the specification with the reference's own
    correction and mask stages. -/
theorem result_eq (x0 : (⟨S64x768, .f32⟩ : BufTy).Contents (Elt Ideal)) (x1 : (⟨S768x768, .f32⟩ : BufTy).Contents (Elt Ideal))
    (x2 : (⟨S1x1, .f32⟩ : BufTy).Contents (Elt Ideal)) :
    val_main_v29 (F := Ideal) x0 x1 x2
      = Cert.Covariance.cov x0 x1 (val_main_v11 (F := Ideal) x0 x1 x2) (val_main_v24 (F := Ideal)) := by
  funext i
  obtain ⟨b, o, p, rfl⟩ : ∃ (b : Fin 64) (o p : Fin 768), i = ix3 b o p := ⟨i 0, i 1, i 2, eq_ix3 i⟩
  rw [Cert.Covariance.cov_ix3, val_main_v29_apply, val_main_v17_apply, val_main_v28_apply, val_main_v26_apply,
    val_main_v18_apply, val_main_v27_apply, val_main_v25_apply, corr_at, mask_at]
  unfold Cert.Covariance.entry
  refine congrArg₂ (fun s d : EReal => s + d) (Finset.sum_congr rfl fun k _ => ?_) rfl
  rw [scaled_left, scaled_right]

end Cert.ReferenceIdeal.RefValue

end
-- ==== Proof.lean ====
/-
  Variance propagation through a linear layer: the kernel against its jnp reference, on the extended reals.

  Both programs return y_mean = x · Wᵀ + bias and the [64, 768, 768] array

      y_var[b, o, p] = ∑ₖ (x[b, k] · W[o, k]) · (x[b, k] · W[p, k])  +  T[b, o] · E[o, p],

  with T = (x² + x²) · (exp α · W · W)ᵀ and E the identity mask. The reference forms the scaled array
  U[b, o, k] = x[b, k] · W[o, k] whole and multiplies it by itself over k in one batched product. The kernel computes
  y_mean, T and E with the same host operations as the reference, then produces y_var eight batch rows per grid
  point: each point rebuilds its eight rows of U, narrows them to a shorter float format (the identity on the
  extended reals), multiplies them by themselves into a zero accumulator (the plain sum there), and adds the
  diagonal term. Entry by entry the two programs form the same products and the same sum over k, so the proof reads
  each side at an index and compares; no law of the extended reals that would need finite inputs is used, and the
  precondition is never opened.

  Proof/Spec.lean states y_var as one function of (x, W, T, E); Proof/Payload.lean reads the kernel body's stored
  value at an index; Proof/KernelValue.lean shows each point writes its rows of that function, that the eight
  blocks tile the array, and reads the host-computed buffers; Proof/RefSpec.lean shows the reference's result is the
  same function. Below: the three frames, the (empty) list of sanctioned rewrites, and the equality of results.
-/
import proofs.«169412_j44358422233577_2_alg».proof.Defs
import proofs.«169412_j44358422233577_2_alg».proof.Proof.Gen.Kernel
import proofs.«169412_j44358422233577_2_alg».proof.Proof.Gen.Kernel.Skeleton
import proofs.«169412_j44358422233577_2_alg».proof.Proof.Gen.Kernel.Launch
import proofs.«169412_j44358422233577_2_alg».proof.Proof.Gen.Kernel.Points
import proofs.«169412_j44358422233577_2_alg».proof.Proof.Gen.Kernel.Frame
import proofs.«169412_j44358422233577_2_alg».proof.Proof.Gen.KernelIdeal
import proofs.«169412_j44358422233577_2_alg».proof.Proof.Gen.KernelIdeal.Skeleton
import proofs.«169412_j44358422233577_2_alg».proof.Proof.Gen.KernelIdeal.Launch
import proofs.«169412_j44358422233577_2_alg».proof.Proof.Gen.KernelIdeal.Points
import proofs.«169412_j44358422233577_2_alg».proof.Proof.Gen.KernelIdeal.Frame
import proofs.«169412_j44358422233577_2_alg».proof.Proof.Gen.ReferenceIdeal
import proofs.«169412_j44358422233577_2_alg».proof.Proof.Gen.Pre_finite_inputs
import proofs.«169412_j44358422233577_2_alg».proof.Proof.Gen.KernelIdeal.Value
import proofs.«169412_j44358422233577_2_alg».proof.Proof.Gen.ReferenceIdeal.Run
import proofs.«169412_j44358422233577_2_alg».proof.Proof.Gen.ReferenceIdeal.Read
import proofs.«169412_j44358422233577_2_alg».proof.Proof.KernelValue
import proofs.«169412_j44358422233577_2_alg».proof.Proof.RefSpec
import Idealize.ShloMosaic.Adequacy
import Idealize.ShloMosaic.Init

noncomputable section

namespace Cert.Proof

open Idealize.ShloMosaic Idealize.ShloMosaic.TcCoe Idealize.SL.Sem

/-! ## The host operations before the launch are the reference's -/

/-- The kernel program's first result is the reference's: the same product and the same bias row. -/
theorem mean_eq (x : FVec Ideal Cert.KernelIdeal.S64x768 .f32) (W : FVec Ideal Cert.KernelIdeal.S768x768 .f32)
    (bias : FVec Ideal Cert.KernelIdeal.S1x768 .f32) :
    Cert.KernelIdeal.Whole.mean x W bias = Cert.ReferenceIdeal.Read.val_main_v7 (F := Ideal) x W bias := rfl

/-- The diagonal correction the kernel program computes before the launch is the reference's. -/
theorem corr_eq (x : FVec Ideal Cert.KernelIdeal.S64x768 .f32) (W : FVec Ideal Cert.KernelIdeal.S768x768 .f32)
    (α : FVec Ideal Cert.KernelIdeal.S1x1 .f32) :
    Cert.KernelIdeal.Whole.corr x W α = Cert.ReferenceIdeal.Read.val_main_v11 (F := Ideal) x W α := rfl

/-- The identity mask the kernel program builds before the launch is the reference's. -/
theorem mask_eq : Cert.KernelIdeal.Whole.mask = Cert.ReferenceIdeal.Read.val_main_v24 (F := Ideal) := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten when the kernel was idealized: nothing to restate. -/
theorem preserves : Cert.preserves_Kernel_KernelIdeal := trivial

/-- From memories agreeing on the arguments, the kernel program ends with y_mean and the specification of its
    arguments, the reference with its composed terms of the same arguments; these are the same two arrays. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.2]
    exact (mean_eq _ _ _).symm
  · rw [(hagree c).1, (hagree c).2.1, (hagree c).2.2.1]
    rw [Cert.ReferenceIdeal.Read.val_main_v29_eq, Cert.ReferenceIdeal.RefValue.result_eq, ← corr_eq, ← mask_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
